-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S128x10 1) : IVec S_ 1 :=
  let main_c_5 : IVec S_ 1 := constantI S_ 1 1#1
  let main_v17 : IVec S_ 1 := (fun x v => Host.reduce IntOp.andi x v reducesTo_S128x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x10 .f32) (main_arg5 : FVec F S10 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x10 .f32 := Host.absf main_arg4
  let main_cst_4 : FVec F S_ .f32 := constant S_ .f32 0x7F800000#32
  let main_v15 : FVec F S128x10 .f32 := broadcastInDim S128x10 ![] bcast_S_S128x10 main_cst_4
  let main_v16 : IVec S128x10 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S1x128 : Shape := ⟨2, ![1, 128]⟩
abbrev S100000x10 : Shape := ⟨2, ![100000, 10]⟩
abbrev S5000x10 : Shape := ⟨2, ![5000, 10]⟩
abbrev S1600000x10 : Shape := ⟨2, ![1600000, 10]⟩
abbrev S1x10 : Shape := ⟨2, ![1, 10]⟩

abbrev nBuf : Space → Nat
  | .hbm => 88
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x10, .f32⟩
  | .hbm, ⟨5, _⟩ => ⟨S10, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x1, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x10, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x10, .f32⟩
  | .hbm, ⟨78, _⟩ => ⟨S1600000x1, .f32⟩
  | .hbm, ⟨79, _⟩ => ⟨S1600000x10, .f32⟩
  | .hbm, ⟨80, _⟩ => ⟨S1600000x10, .f32⟩
  | .hbm, ⟨81, _⟩ => ⟨S_, .f32⟩
  | .hbm, ⟨82, _⟩ => ⟨S100000x10, .f32⟩
  | .hbm, ⟨83, _⟩ => ⟨S1600000x1, .i32⟩
  | .hbm, ⟨84, _⟩ => ⟨S100000x10, .f32⟩
  | .hbm, ⟨85, _⟩ => ⟨S1x10, .f32⟩
  | .hbm, ⟨86, _⟩ => ⟨S100000x10, .f32⟩
  | .hbm, ⟨87, _⟩ => ⟨S100000x10, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x10, .f32⟩
  | .local _ .vmem, ⟨13, _⟩ => ⟨S5000x10, .f32⟩
  | .local _ .vmem, ⟨14, _⟩ => ⟨S5000x10, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  inb_S5000x10_S5000x10_0_0 : ∀ a, (![0, 0] : Fin 2 → Nat) a + S5000x10.size a ≤ S5000x10.size a
  h_S5000x10 : 0 < S5000x10.numel
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x10_S5000x10_1_0_0_1_n_n_wf : DotDims.WF S5000x128 S128x10 S5000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .f32 = 32 ∨ (Rect.block (s := S128x10) S128x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x10.size a ≤ S100000x10.size a
  hwx2_2 : ∀ i : grid2.Coords, EltTy.bits .f32 = 32 ∨ (Rect.block (s := S100000x10) S5000x10.size (cc2_transform_2 i) (hinb2_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S1x128 : Shape := ⟨2, ![1, 128]⟩
abbrev S100000x10 : Shape := ⟨2, ![100000, 10]⟩
abbrev S1600000x10 : Shape := ⟨2, ![1600000, 10]⟩
abbrev S1x10 : Shape := ⟨2, ![1, 10]⟩

abbrev nBuf : Space → Nat
  | .hbm => 93
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x10, .f32⟩
  | .hbm, ⟨5, _⟩ => ⟨S10, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x1, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x10, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x10, .f32⟩
  | .hbm, ⟨83, _⟩ => ⟨S1600000x1, .f32⟩
  | .hbm, ⟨84, _⟩ => ⟨S1600000x10, .f32⟩
  | .hbm, ⟨85, _⟩ => ⟨S1600000x10, .f32⟩
  | .hbm, ⟨86, _⟩ => ⟨S_, .f32⟩
  | .hbm, ⟨87, _⟩ => ⟨S100000x10, .f32⟩
  | .hbm, ⟨88, _⟩ => ⟨S1600000x1, .i32⟩
  | .hbm, ⟨89, _⟩ => ⟨S100000x10, .f32⟩
  | .hbm, ⟨90, _⟩ => ⟨S1x10, .f32⟩
  | .hbm, ⟨91, _⟩ => ⟨S100000x10, .f32⟩
  | .hbm, ⟨92, _⟩ => ⟨S100000x10, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x10_S100000x10_1_0_0_1_n_n_wf : DotDims.WF S100000x128 S128x10 S100000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

class Facts : Prop extends Facts₀ where

variable [Facts]
-- ==== Proof.HostSpec.lean ====
/-
  The host side of the two graph-convolution layers, as functions of what the dense transforms produce.

  Both programs run the same host operations around their dense transforms. From the [2, E] edge list: the source and the
  destination node of every edge (its two rows); the in-degree of every node (ones added at the destinations); the node weight
  degree^(-1/2) where the degree is positive and 0 elsewhere; the edge weight, the product of its two nodes' weights (a negative
  node index is first moved up by the number of nodes, as jnp's indexing does). A layer then gathers the transformed rows at
  the edges' sources, scales each by its edge's weight and adds it into the row of the edge's destination. Layer 1 adds its bias
  and takes the maximum with zero; layer 2 adds its bias. They are written here once, in the reference program's own
  vocabulary of shapes and dimension numbers, for any float instance.
-/
import proofs.«178393_j21655225106952_1_alg».proof.Proof.Gen.ReferenceIdeal

noncomputable section

namespace Cert.Gcn

open Cert.ReferenceIdeal Cert.ReferenceIdeal.Gen Idealize.ShloMosaic

variable {F : FTy → Type} [FloatOps F]

/-- The edges' source nodes: the first row of the edge list. -/
def srcOf (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The edges' destination nodes: the second row of the edge list. -/
def dstOf (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- Node indices as a column of gather starts, a negative index moved up by the number of nodes. -/
def startsOf (r : (⟨S1600000, .i32⟩ : BufTy).Contents (Elt F)) : (⟨S1600000x1, .i32⟩ : BufTy).Contents (Elt F) :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

/-- Node indices as a column of scatter targets. -/
def targetsOf (r : (⟨S1600000, .i32⟩ : BufTy).Contents (Elt F)) : (⟨S1600000x1, .i32⟩ : BufTy).Contents (Elt F) :=
  broadcastInDim S1600000x1 ![0] bcast_S1600000_S1600000x1_0 r

/-- Every node's in-degree: a one added at each edge's destination. -/
def degOf (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32)) (targetsOf (dstOf e))
    (broadcastInDim S1600000 ![] bcast_S_S1600000 (constant S_ .f32 0x3F800000#32))

/-- Every node's weight: degree^(-1/2) (of the degree raised to at least one) where the degree is positive, 0 elsewhere. -/
def nodeWeightOf (e : (⟨S2x1600000, .i32⟩ : BufTy).Contents (Elt F)) : (⟨S100000, .f32⟩ : BufTy).Contents (Elt F) :=
  select (cmpf (F := F) .ogt (degOf e) (broadcastInDim S100000 ![] bcast_S_S100000 (constant S_ .f32 0x00000000#32)))
    (Host.rsqrt (maximumf (degOf e) (broadcastInDim S100000 ![] bcast_S_S100000 (constant S_ .f32 0x3F800000#32))))
    (broadcastInDim S100000 ![] bcast_S_S100000 (id (constant S_ .f32 0x00000000#32)))

/-- Every edge's weight: its source's node weight times its destination's. -/
def edgeWeightOf (e : (⟨S2x1600000, .i32⟩ : BufTy).Contents (Elt F)) : (⟨S1600000, .f32⟩ : BufTy).Contents (Elt F) :=
  mulf (Host.gather gather_S100000_S1600000x1_S1600000_n_0_n_n_0_1_1 (nodeWeightOf e) (startsOf (srcOf e)))
    (Host.gather gather_S100000_S1600000x1_S1600000_n_0_n_n_0_1_1 (nodeWeightOf e) (startsOf (dstOf e)))

/-- Layer 1's aggregation of [100000, 128] rows h: row src[k] of h times w[k] added into row dst[k], over the edges k. -/
def aggregate128 (h : (⟨S100000x128, .f32⟩ : BufTy).Contents (Elt F)) (src dst : (⟨S1600000, .i32⟩ : BufTy).Contents (Elt F))
    (w : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (targetsOf dst)
    (mulf (Host.gather gather_S100000x128_S1600000x1_S1600000x128_1_0_n_n_0_1_1128 h (startsOf src))
      (broadcastInDim S1600000x128 ![0, 1] bcast_S1600000x1_S1600000x128_0_1
        (broadcastInDim S1600000x1 ![0] bcast_S1600000_S1600000x1_0 w)))

/-- Layer 2's aggregation of [100000, 10] rows h, the same way. -/
def aggregate10 (h : (⟨S100000x10, .f32⟩ : BufTy).Contents (Elt F)) (src dst : (⟨S1600000, .i32⟩ : BufTy).Contents (Elt F))
    (w : (⟨S1600000, .f32⟩ : BufTy).Contents (Elt F)) : (⟨S100000x10, .f32⟩ : BufTy).Contents (Elt F) :=
  Host.scatterAdd scatter_S100000x10_S1600000x1_S1600000x10_1_0_0_1
    (broadcastInDim S100000x10 ![] bcast_S_S100000x10 (constant S_ .f32 0x00000000#32)) (targetsOf dst)
    (mulf (Host.gather gather_S100000x10_S1600000x1_S1600000x10_1_0_n_n_0_1_110 h (startsOf src))
      (broadcastInDim S1600000x10 ![0, 1] bcast_S1600000x1_S1600000x10_0_1
        (broadcastInDim S1600000x1 ![0] bcast_S1600000_S1600000x1_0 w)))

/-- Layer 1's bias added to every row and the maximum with zero, in the host's spelling. -/
def hiddenOf (a : (⟨S100000x128, .f32⟩ : BufTy).Contents (Elt F)) (b : (⟨S128, .f32⟩ : BufTy).Contents (Elt F)) :
    (⟨S100000x128, .f32⟩ : BufTy).Contents (Elt F) :=
  maximumf (addf a (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- Layer 2's bias added to every row. -/
def outOf (a : (⟨S100000x10, .f32⟩ : BufTy).Contents (Elt F)) (b : (⟨S10, .f32⟩ : BufTy).Contents (Elt F)) :
    (⟨S100000x10, .f32⟩ : BufTy).Contents (Elt F) :=
  addf a (broadcastInDim S100000x10 ![0, 1] bcast_S1x10_S100000x10_0_1 (broadcastInDim S1x10 ![1] bcast_S10_S1x10_1 b))

/-- The host's two dense transforms. -/
def denseHost1 (x : (⟨S100000x256, .f32⟩ : BufTy).Contents (Elt F)) (w : (⟨S256x128, .f32⟩ : BufTy).Contents (Elt F)) :
    (⟨S100000x128, .f32⟩ : BufTy).Contents (Elt F) :=
  Host.dotGeneral dot_S100000x256_S256x128_S100000x128_1_0_0_1_n_n none x w
def denseHost2 (h : (⟨S100000x128, .f32⟩ : BufTy).Contents (Elt F)) (w : (⟨S128x10, .f32⟩ : BufTy).Contents (Elt F)) :
    (⟨S100000x10, .f32⟩ : BufTy).Contents (Elt F) :=
  Host.dotGeneral dot_S100000x128_S128x10_S100000x10_1_0_0_1_n_n none h w

/-- The two layers from the hidden array h1 on: layer 2's dense transform t2 of h1, its aggregation and its bias. -/
def layer2 (t2 : (⟨S100000x10, .f32⟩ : BufTy).Contents (Elt F)) (e : (⟨S2x1600000, .i32⟩ : BufTy).Contents (Elt F))
    (b2 : (⟨S10, .f32⟩ : BufTy).Contents (Elt F)) : (⟨S100000x10, .f32⟩ : BufTy).Contents (Elt F) :=
  outOf (aggregate10 t2 (srcOf e) (dstOf e) (edgeWeightOf e)) b2

/-- Layer 1 from its dense transform t1 on: its aggregation, its bias and the ramp. -/
def layer1 (t1 : (⟨S100000x128, .f32⟩ : BufTy).Contents (Elt F)) (e : (⟨S2x1600000, .i32⟩ : BufTy).Contents (Elt F))
    (b1 : (⟨S128, .f32⟩ : BufTy).Contents (Elt F)) : (⟨S100000x128, .f32⟩ : BufTy).Contents (Elt F) :=
  hiddenOf (aggregate128 t1 (srcOf e) (dstOf e) (edgeWeightOf e)) b1

/-- The whole network in the host's spelling. -/
def network (x : (⟨S100000x256, .f32⟩ : BufTy).Contents (Elt F)) (e : (⟨S2x1600000, .i32⟩ : BufTy).Contents (Elt F))
    (w1 : (⟨S256x128, .f32⟩ : BufTy).Contents (Elt F)) (b1 : (⟨S128, .f32⟩ : BufTy).Contents (Elt F))
    (w2 : (⟨S128x10, .f32⟩ : BufTy).Contents (Elt F)) (b2 : (⟨S10, .f32⟩ : BufTy).Contents (Elt F)) :
    (⟨S100000x10, .f32⟩ : BufTy).Contents (Elt F) :=
  layer2 (denseHost2 (layer1 (denseHost1 x w1) e b1) w2) e b2

end Cert.Gcn

end
-- ==== Proof.RefValue.lean ====
/-
  The reference program's result is the network of the host specification: its run's composed term, unfolded, is the two
  layers applied to the argument arrays — the same operations in the same order, the shared subterms named.
-/
import proofs.«178393_j21655225106952_1_alg».proof.Proof.RefRun
import proofs.«178393_j21655225106952_1_alg».proof.Proof.HostSpec

set_option maxRecDepth 16384

noncomputable section

namespace Cert.ReferenceIdeal.RefValue

open Cert.ReferenceIdeal Cert.ReferenceIdeal.Gen Cert.ReferenceIdeal.ValueP Cert.Gcn
open Idealize.ShloMosaic Idealize.ShloMosaic.TcCoe Idealize.SL.Sem

variable {F : FTy → Type} [FloatOps F]

/-- The reference's result term is the network of its six argument arrays. -/
theorem res_eq (m : (ℓ : Loc nD τ sig) → Buf (Elt F) ℓ) (c : Dev nD) :
    res_main_v67 m c = network (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v67
  rfl

end Cert.ReferenceIdeal.RefValue

end
-- ==== Proof.KernelRun.lean ====
/-
  The idealized kernel's run with its result named.

  The program is three kernel regions among stretches of host operations. Its run ends with every buffer of the core at the
  last boundary's contents: the host operations after the third region applied to what the third region leaves, which is the
  host operations between the regions applied to what the earlier regions leave, down to the launch memory. Here that run is
  stated with the result buffer read at those contents, beside the six argument arrays, which no operation and no region writes.
-/
import proofs.«178393_j21655225106952_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«178393_j21655225106952_1_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.Spec.lean ====
/-
  The two entry-by-entry functions the kernel regions compute, over the extended reals and over literal array shapes:
  the product of two matrices, and a bias added to every row followed by the maximum with zero.
-/
import Idealize.ShloMosaic.PureOps.Ideal
import Idealize.ShloMosaic.Lib.ValueIdx

noncomputable section

open scoped BigOperators

namespace Cert.Gcn

open Idealize.ShloMosaic Idealize.ShloMosaic.ValueIdx

/-- The product of an [M, K] array and a [K, N] array over the extended reals: entry (i, j) is Σ_k A[i, k] · B[k, j]. -/
def prod (M K N : ℕ) (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (M K N : ℕ) (A : (⟨2, ![M, K]⟩ : Shape).Idx → EReal) (B : (⟨2, ![K, N]⟩ : Shape).Idx → EReal)
    (i : (⟨2, ![M, N]⟩ : Shape).Idx) : prod M K N A B i = ∑ k : Fin K, A (ix2 (i 0) k) * B (ix2 k (i 1)) := rfl

/-- max(a + b, 0) over the extended reals: the [D] vector b added to every row of the [N, D] array a, then the maximum with
    what the zero word denotes. -/
def biasRamp (N D : ℕ) (a : (⟨2, ![N, D]⟩ : Shape).Idx → EReal) (b : (⟨1, ![D]⟩ : Shape).Idx → EReal) :
    (⟨2, ![N, D]⟩ : Shape).Idx → EReal :=
  fun i => max (a i + b (ix1 (i 1))) (Ideal.ofBits .f32 0x00000000#32)

theorem biasRamp_apply (N D : ℕ) (a : (⟨2, ![N, D]⟩ : Shape).Idx → EReal) (b : (⟨1, ![D]⟩ : Shape).Idx → EReal)
    (i : (⟨2, ![N, D]⟩ : Shape).Idx) : biasRamp N D a b i = max (a i + b (ix1 (i 1))) (Ideal.ofBits .f32 0x00000000#32) := rfl

end Cert.Gcn

end
-- ==== Proof.Dense1.lean ====
/-
  The first dense transform: what the first kernel region leaves in its output array.

  The region walks 20 row blocks of 5000 rows. At block t it loads rows 5000·t … 5000·t + 4999 of the [100000, 256] operand and
  the whole [256, 128] weight, multiplies them on the matrix unit from a zero accumulator, and writes rows 5000·t … of the
  [100000, 128] result. Over the extended reals a change of float format is the identity and the matrix unit's entry (p, q) is
  Σ_k x[p, k] · w[k, q], so block t of the result holds rows 5000·t … of the whole product; the 20 blocks tile the rows, so
  the array the region leaves IS the whole product, entry by entry, of the arrays the region found.
-/
import proofs.«178393_j21655225106952_1_alg».proof.Proof.Gen.KernelIdeal.Frame
import proofs.«178393_j21655225106952_1_alg».proof.Proof.LibDotInnerHost
import proofs.«178393_j21655225106952_1_alg».proof.Proof.Spec
import Idealize.ShloMosaic.Lib.Pipeline.Value
import Idealize.ShloMosaic.Lib.ValueIdx

set_option maxRecDepth 16384

noncomputable section

open scoped BigOperators

namespace Cert.KernelIdeal.Dense1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block's dimension numbers say rows by columns. -/
theorem plain : DotInner.Plain dot_S5000x256_S256x128_S5000x128_1_0_0_1_n_n :=
  plain_record dot_S5000x256_S256x128_S5000x128_1_0_0_1_n_n, S5000x256, S256x128

/-- The body's one stored value at an entry of the block: the block's rows against the weight's columns. The two
    roundings to bf16 are the identity over the extended reals. -/
theorem pay_entry (x0 : Vec Ideal S5000x256 .f32) (x1 : Vec Ideal S256x128 .f32) (y : S5000x128.Idx) :
    k0_pay1 (F := Ideal) x0 x1 y = ∑ k : Fin 256, x0 (ix2 (y 0) k) * x1 (ix2 k (y 1)) := by
  conv_lhs => rw [eq_ix2 y]
  unfold k0_pay1
  exact plain.matmul_zero none _ _ (y 0) (y 1)

/-- The staging buffer after the body holds that stored value: the one store covers the whole block. -/
theorem out_eq (x0 : Vec Ideal S5000x256 .f32) (x1 : Vec Ideal S256x128 .f32) : out0_2 (F := Ideal) x0 x1 = k0_pay1 x0 x1 := by
  unfold out0_2
  rw [View.canon_unit_zero hz]
  simp only [View.ld_unit_zero (S := S5000x256) hz, View.ld_unit_zero (S := S256x128) hz]

/-- The printed index maps over the grid: the row operand and the result move one block of rows per point, the weight
    stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row operand's block at point t is rows 5000·t … of the array the region found. -/
theorem rows_read (c : Dev nD) (t : Fin cfg0.N) (y : S5000x256.Idx) (i : S100000x256.Idx)
    (h0 : (i 0).val = t.val * 5000 + (y 0).val) (h1 : (i 1).val = (y 1).val) :
    (iblk0 V c 0 t : Vec Ideal S5000x256 .f32) y = (V c main_arg0 : S100000x256.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 256 + 1 * (y 1).val = (i 1).val; rw [e1, h1]; omega

/-- The weight's block at every point is the whole weight. -/
theorem weight_read (c : Dev nD) (t : Fin cfg0.N) (y : S256x128.Idx) :
    (iblk0 V c 1 t : Vec Ideal S256x128 .f32) y = (V c main_arg2 : S256x128.Idx → EReal) y := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 256 + 1 * (y 0).val = (y 0).val; rw [e0]; omega
  | ⟨1, _⟩ => show win0_1.index t 1 * 128 + 1 * (y 1).val = (y 1).val; rw [e1]; omega

/-- WHAT POINT t WRITES BACK is block t of the whole product of the arrays the region found. -/
theorem flushed_eq (c : Dev nD) (t : Fin cfg0.N) :
    (dat0 V c).flushed 2 t = ((cfg0.win 2).blk t).view.read (Elt Ideal)
      (prod 100000 256 128 (V c main_arg0) (V c main_arg2)) := by
  obtain ⟨-, -, -, -, e0, e1⟩ := idx_facts t
  show (cfg0.win 2).cut (grid0.coords t) ((dat0 V c).after 2 t) = _
  rw [after0_2, out_eq]
  funext j
  refine (pay_entry (iblk0 V c 0 t) (iblk0 V c 1 t) j).trans ?_
  show _ = prod 100000 256 128 (V c main_arg0) (V c main_arg2) (((cfg0.win 2).blk t).view.emb j)
  rw [prod_apply]
  refine Finset.sum_congr rfl fun k _ => ?_
  congr 1
  · refine rows_read V c t _ _ ?_ ?_
    · show win0_2.index t 0 * 5000 + 1 * (j 0).val = t.val * 5000 + (j 0).val; rw [e0]; omega
    · rfl
  · refine (weight_read V c t _).trans ?_
    congr 1
    funext a
    apply Fin.ext
    match a with
    | ⟨0, _⟩ => rfl
    | ⟨1, _⟩ => show (j 1).val = win0_2.index t 1 * 128 + 1 * (j 1).val; rw [e1]; omega

/-- An index of the result array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- Every row of the result is in some point's block: row r in block r / 5000. -/
theorem cover (i : S100000x128.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_2 _, ?_⟩
  rw [mem_blk]
  obtain ⟨-, -, -, -, e0, e1⟩ := idx_facts ⟨(i 0).val / 5000, by rw [hN]; omega⟩
  intro a
  match a with
  | ⟨0, _⟩ =>
    show win0_2.index _ 0 * 5000 ≤ (i 0).val ∧ (i 0).val < win0_2.index _ 0 * 5000 + 5000
    rw [e0]; show (i 0).val / 5000 * 5000 ≤ (i 0).val ∧ (i 0).val < (i 0).val / 5000 * 5000 + 5000; omega
  | ⟨1, _⟩ =>
    show win0_2.index _ 1 * 128 ≤ (i 1).val ∧ (i 1).val < win0_2.index _ 1 * 128 + 128
    rw [e1]; omega

/-- THE ARRAY the region leaves: the whole product of the arrays it found. -/
theorem final (c : Dev nD) :
    (dat0 V c).arrAt 2 cfg0.N = prod 100000 256 128 (V c main_arg0) (V c main_arg2) :=
  (dat0 V c).arrAt_eq_of_cover 2 _ (fun t _ => flushed_eq V c t) cover

end Cert.KernelIdeal.Dense1

end
-- ==== Proof.Dense2.lean ====
/-
  The second dense transform: what the third kernel region leaves in its output array.

  The region walks 20 row blocks of 5000 rows. At block t it loads rows 5000·t … 5000·t + 4999 of the [100000, 128] hidden
  array and the whole [128, 10] weight, multiplies them on the matrix unit from a zero accumulator, and writes rows 5000·t … of
  the [100000, 10] result. Over the extended reals a change of float format is the identity and the matrix unit's entry (p, q)
  is Σ_k h[p, k] · w[k, q], so block t of the result holds rows 5000·t … of the whole product; the 20 blocks tile the rows, so
  the array the region leaves IS the whole product, entry by entry, of the arrays the region found.
-/
import proofs.«178393_j21655225106952_1_alg».proof.Proof.Gen.KernelIdeal.Frame
import proofs.«178393_j21655225106952_1_alg».proof.Proof.LibDotInnerHost
import proofs.«178393_j21655225106952_1_alg».proof.Proof.Spec
import Idealize.ShloMosaic.Lib.Pipeline.Value
import Idealize.ShloMosaic.Lib.ValueIdx

set_option maxRecDepth 16384

noncomputable section

open scoped BigOperators

namespace Cert.KernelIdeal.Dense2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block's dimension numbers say rows by columns. -/
theorem plain : DotInner.Plain dot_S5000x128_S128x10_S5000x10_1_0_0_1_n_n :=
  plain_record dot_S5000x128_S128x10_S5000x10_1_0_0_1_n_n, S5000x128, S128x10

/-- The body's one stored value at an entry of the block: the block's rows against the weight's columns. The cast
    of the block to its own shape and the two roundings to bf16 are the identity over the extended reals. -/
theorem pay_entry (x0 : Vec Ideal S5000x128 .f32) (x1 : Vec Ideal S128x10 .f32) (y : S5000x10.Idx) :
    k2_pay1 (F := Ideal) x0 x1 y = ∑ k : Fin 128, x0 (ix2 (y 0) k) * x1 (ix2 k (y 1)) := by
  conv_lhs => rw [eq_ix2 y]
  unfold k2_pay1
  refine (plain.matmul_zero none _ _ (y 0) (y 1)).trans ?_
  refine Finset.sum_congr rfl fun k _ => ?_
  show (shapeCast S5000x128 x0 shapeCasts_S5000x128_S5000x128) (ix2 (y 0) k) * x1 (ix2 k (y 1)) = _
  rw [shapeCast_self]

/-- The staging buffer after the body holds that stored value: the one store covers the whole block. -/
theorem out_eq (x0 : Vec Ideal S5000x128 .f32) (x1 : Vec Ideal S128x10 .f32) : out2_2 (F := Ideal) x0 x1 = k2_pay1 x0 x1 := by
  unfold out2_2
  rw [View.canon_unit_zero hz]
  simp only [View.ld_unit_zero (S := S5000x128) hz, View.ld_unit_zero (S := S128x10) hz]

/-- The printed index maps over the grid: the row operand and the result move one block of rows per point, the weight
    stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row operand's block at point t is rows 5000·t … of the array the region found. -/
theorem rows_read (c : Dev nD) (t : Fin cfg2.N) (y : S5000x128.Idx) (i : S100000x128.Idx)
    (h0 : (i 0).val = t.val * 5000 + (y 0).val) (h1 : (i 1).val = (y 1).val) :
    (iblk2 V c 0 t : Vec Ideal S5000x128 .f32) y = (V c main_v47 : S100000x128.Idx → EReal) i := by
  obtain ⟨e0, e1, -⟩ := idx_facts t
  unfold iblk2
  rw [View.read_apply]
  show V c main_v47 _ = V c main_v47 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The weight's block at every point is the whole weight. -/
theorem weight_read (c : Dev nD) (t : Fin cfg2.N) (y : S128x10.Idx) :
    (iblk2 V c 1 t : Vec Ideal S128x10 .f32) y = (V c main_arg4 : S128x10.Idx → EReal) y := by
  obtain ⟨-, -, e0, e1, -⟩ := idx_facts t
  unfold iblk2
  rw [View.read_apply]
  show V c main_arg4 _ = V c main_arg4 _
  congr 1
  funext a
  apply Fin.ext
  match a with
  | ⟨0, _⟩ => show win2_1.index t 0 * 128 + 1 * (y 0).val = (y 0).val; rw [e0]; omega
  | ⟨1, _⟩ => show win2_1.index t 1 * 10 + 1 * (y 1).val = (y 1).val; rw [e1]; omega

/-- WHAT POINT t WRITES BACK is block t of the whole product of the arrays the region found. -/
theorem flushed_eq (c : Dev nD) (t : Fin cfg2.N) :
    (dat2 V c).flushed 2 t = ((cfg2.win 2).blk t).view.read (Elt Ideal)
      (prod 100000 128 10 (V c main_v47) (V c main_arg4)) := by
  obtain ⟨-, -, -, -, e0, e1⟩ := idx_facts t
  show (cfg2.win 2).cut (grid2.coords t) ((dat2 V c).after 2 t) = _
  rw [after2_2, out_eq]
  funext j
  refine (pay_entry (iblk2 V c 0 t) (iblk2 V c 1 t) j).trans ?_
  show _ = prod 100000 128 10 (V c main_v47) (V c main_arg4) (((cfg2.win 2).blk t).view.emb j)
  rw [prod_apply]
  refine Finset.sum_congr rfl fun k _ => ?_
  congr 1
  · refine rows_read V c t _ _ ?_ ?_
    · show win2_2.index t 0 * 5000 + 1 * (j 0).val = t.val * 5000 + (j 0).val; rw [e0]; omega
    · rfl
  · refine (weight_read V c t _).trans ?_
    congr 1
    funext a
    apply Fin.ext
    match a with
    | ⟨0, _⟩ => rfl
    | ⟨1, _⟩ => show (j 1).val = win2_2.index t 1 * 10 + 1 * (j 1).val; rw [e1]; omega

/-- An index of the result array is in point t's block iff each coordinate is in the block's range on its axis. -/
theorem mem_blk (t : Fin cfg2.N) (i : S100000x10.Idx) :
    i ∈ ((cfg2.win 2).blk t).view.set ↔ ∀ a : Fin 2, win2_2.index t a * S5000x10.size a ≤ (i a).val
      ∧ (i a).val < win2_2.index t a * S5000x10.size a + S5000x10.size a := by
  show i ∈ ((View.whole main_v48).slice (win2_2.rect t)).set ↔ _
  rw [View.set_slice_whole, Rect.mem_set_unit]
  exact Iff.rfl

/-- Every row of the result is in some point's block: row r in block r / 5000. -/
theorem cover (i : S100000x10.Idx) : ∃ t : Fin cfg2.N, (cfg2.win 2).flush t = true ∧ i ∈ ((cfg2.win 2).blk t).view.set := by
  have hN : cfg2.N = 20 := N_2
  have hi0 : (i 0).val < 100000 := (i 0).isLt
  have hi1 : (i 1).val < 10 := (i 1).isLt
  refine ⟨⟨(i 0).val / 5000, by rw [hN]; omega⟩, flush2_2 _, ?_⟩
  rw [mem_blk]
  obtain ⟨-, -, -, -, e0, e1⟩ := idx_facts ⟨(i 0).val / 5000, by rw [hN]; omega⟩
  intro a
  match a with
  | ⟨0, _⟩ =>
    show win2_2.index _ 0 * 5000 ≤ (i 0).val ∧ (i 0).val < win2_2.index _ 0 * 5000 + 5000
    rw [e0]; show (i 0).val / 5000 * 5000 ≤ (i 0).val ∧ (i 0).val < (i 0).val / 5000 * 5000 + 5000; omega
  | ⟨1, _⟩ =>
    show win2_2.index _ 1 * 10 ≤ (i 1).val ∧ (i 1).val < win2_2.index _ 1 * 10 + 10
    rw [e1]; omega

/-- THE ARRAY the region leaves: the whole product of the arrays it found. -/
theorem final (c : Dev nD) :
    (dat2 V c).arrAt 2 cfg2.N = prod 100000 128 10 (V c main_v47) (V c main_arg4) :=
  (dat2 V c).arrAt_eq_of_cover 2 _ (fun t _ => flushed_eq V c t) cover

end Cert.KernelIdeal.Dense2

end
-- ==== Proof.BiasRamp.lean ====
/-
  The bias and the ramp of layer 1: what the second kernel region leaves in its output array.

  The region walks 20 row blocks of 5000 rows of the [100000, 128] aggregate. At block t it adds the [128] bias, as a row
  repeated down the block, to rows 5000·t … of the aggregate and takes the maximum with zero. Entry (p, q) of the block is
  max(a[5000·t + p, q] + b[q], 0); the 20 blocks tile the rows, so the array the region leaves is max(a + b, 0) entry by entry
  of the arrays the region found.
-/
import proofs.«178393_j21655225106952_1_alg».proof.Proof.Gen.KernelIdeal.Frame
import proofs.«178393_j21655225106952_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.BiasRamp

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's one stored value at an entry of the block: the block's entry plus the bias of its column, against zero. -/
theorem pay_entry (x0 : Vec Ideal S5000x128 .f32) (x1 : Vec Ideal S128 .f32) (y : S5000x128.Idx) :
    k1_pay1 (F := Ideal) x0 x1 y = max (x0 y + x1 (ix1 (y 1))) (Ideal.ofBits .f32 0x00000000#32) := by
  obtain ⟨p, q, rfl⟩ : ∃ (p : Fin 5000) (q : Fin 128), y = ix2 p q := ⟨y 0, y 1, eq_ix2 y⟩
  show maximumf (addf (shapeCast S5000x128 x0 shapeCasts_S5000x128_S5000x128)
      (broadcastTo S5000x128 (shapeCast S1x128 x1 shapeCasts_S128_S1x128) broadcasts_S1x128_S5000x128))
      (broadcast S5000x128 (Scalar.ofBits (F := Ideal) .f32 0x00000000#32)) (ix2 p q) = _
  rw [maximumf_apply, addf_apply, shapeCast_self, broadcast_apply, broadcastTo_1b_ab_apply, shapeCast_a_1a_apply]
  rfl

/-- The staging buffer after the body holds that stored value: the one store covers the whole block. -/
theorem out_eq (x0 : Vec Ideal S5000x128 .f32) (x1 : Vec Ideal S128 .f32) : out1_2 (F := Ideal) x0 x1 = k1_pay1 x0 x1 := by
  unfold out1_2
  rw [View.canon_unit_zero hz2]
  simp only [View.ld_unit_zero (S := S5000x128) hz2, View.ld_unit_zero (S := S128) hz1]

/-- The printed index maps over the grid: the aggregate and the result move one block of rows per point, the bias stays. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The aggregate's block at point t is rows 5000·t … of the array the region found. -/
theorem rows_read (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v46 : S100000x128.Idx → EReal) i := by
  obtain ⟨e0, e1, -⟩ := idx_facts t
  unfold iblk1
  rw [View.read_apply]
  show V c main_v46 _ = V c main_v46 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The bias's block at every point is the whole bias. -/
theorem bias_read (c : Dev nD) (t : Fin cfg1.N) (y : S128.Idx) (i : S128.Idx) (h0 : (i 0).val = (y 0).val) :
    (iblk1 V c 1 t : Vec Ideal S128 .f32) y = (V c main_arg3 : S128.Idx → EReal) i := by
  obtain ⟨-, -, e0, -⟩ := idx_facts t
  unfold iblk1
  rw [View.read_apply]
  show V c main_arg3 _ = V c main_arg3 _
  congr 1
  funext a
  apply Fin.ext
  match a with
  | ⟨0, _⟩ => show win1_1.index t 0 * 128 + 1 * (y 0).val = (i 0).val; rw [e0, h0]; omega

/-- WHAT POINT t WRITES BACK is block t of max(a + b, 0) of the arrays the region found. -/
theorem flushed_eq (c : Dev nD) (t : Fin cfg1.N) :
    (dat1 V c).flushed 2 t = ((cfg1.win 2).blk t).view.read (Elt Ideal)
      (biasRamp 100000 128 (V c main_v46) (V c main_arg3)) := by
  obtain ⟨-, -, -, e0, e1⟩ := idx_facts t
  show (cfg1.win 2).cut (grid1.coords t) ((dat1 V c).after 2 t) = _
  rw [after1_2, out_eq]
  funext j
  refine (pay_entry (iblk1 V c 0 t) (iblk1 V c 1 t) j).trans ?_
  show _ = biasRamp 100000 128 (V c main_v46) (V c main_arg3) (((cfg1.win 2).blk t).view.emb j)
  rw [biasRamp_apply]
  refine congrArg₂ max (congrArg₂ (· + ·) ?_ ?_) rfl
  · refine rows_read V c t _ _ ?_ ?_
    · show win1_2.index t 0 * 5000 + 1 * (j 0).val = t.val * 5000 + (j 0).val; rw [e0]; omega
    · show win1_2.index t 1 * 128 + 1 * (j 1).val = (j 1).val; rw [e1]; omega
  · refine bias_read V c t _ _ ?_
    show win1_2.index t 1 * 128 + 1 * (j 1).val = (j 1).val; rw [e1]; omega

/-- An index of the result array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Every row of the result is in some point's block: row r in block r / 5000. -/
theorem cover (i : S100000x128.Idx) : ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_2 _, ?_⟩
  rw [mem_blk]
  obtain ⟨-, -, -, e0, e1⟩ := idx_facts ⟨(i 0).val / 5000, by rw [hN]; omega⟩
  intro a
  match a with
  | ⟨0, _⟩ =>
    show win1_2.index _ 0 * 5000 ≤ (i 0).val ∧ (i 0).val < win1_2.index _ 0 * 5000 + 5000
    rw [e0]; show (i 0).val / 5000 * 5000 ≤ (i 0).val ∧ (i 0).val < (i 0).val / 5000 * 5000 + 5000; omega
  | ⟨1, _⟩ =>
    show win1_2.index _ 1 * 128 ≤ (i 1).val ∧ (i 1).val < win1_2.index _ 1 * 128 + 128
    rw [e1]; omega

/-- THE ARRAY the region leaves: max(a + b, 0) of the arrays it found. -/
theorem final (c : Dev nD) :
    (dat1 V c).arrAt 2 cfg1.N = biasRamp 100000 128 (V c main_v46) (V c main_arg3) :=
  (dat1 V c).arrAt_eq_of_cover 2 _ (fun t _ => flushed_eq V c t) cover

end Cert.KernelIdeal.BiasRamp

end
-- ==== Proof.HostHead.lean ====
/-
  The kernel program's host operations before its first region: the edge data.

  From the launch memory the first stretches slice the edge list into its source and destination rows, count the in-degrees,
  form the node weights (through the one called function, a select) and the edge weights: the host specification's functions of
  the edge list. The float arguments pass through them unchanged.
-/
import proofs.«178393_j21655225106952_1_alg».proof.Proof.Gen.KernelIdeal.Frame
import proofs.«178393_j21655225106952_1_alg».proof.Proof.HostSpec
import Idealize.ShloMosaic.Lib.StableHlo.Run

set_option maxRecDepth 16384

noncomputable section

namespace Cert.KernelIdeal.HostHead

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The edges' sources at the first region's entry. -/
theorem src_eq (c : Dev nD) :
    W3 m ρ c (Proc.devRef .tc main_v1) = Cert.Gcn.srcOf (F := F) (m ((c : Thread nD τ).loc main_arg1)) := by
  dsimp only [W3, W2, W1, W0, hostOps0, hostOps0_1, hostOps0_2]
  after_results_simp
  rfl

/-- The edges' destinations at the first region's entry. -/
theorem dst_eq (c : Dev nD) :
    W3 m ρ c (Proc.devRef .tc main_v3) = Cert.Gcn.dstOf (F := F) (m ((c : Thread nD τ).loc main_arg1)) := by
  dsimp only [W3, W2, W1, W0, hostOps0, hostOps0_1, hostOps0_2]
  after_results_simp
  rfl

/-- The edge weights at the first region's entry. -/
theorem weight_eq (c : Dev nD) :
    W3 m ρ c (Proc.devRef .tc main_v32) = Cert.Gcn.edgeWeightOf (F := F) (m ((c : Thread nD τ).loc main_arg1)) := by
  dsimp only [W3, W2, W1, W0, hostOps0, hostOps0_1, hostOps0_2]
  after_results_simp
  rfl

/-- The float arguments at the first region's entry are the launch memory's. -/
theorem arg0_eq (c : Dev nD) : W3 m ρ c (Proc.devRef .tc main_arg0) = m ((c : Thread nD τ).loc main_arg0) := by
  dsimp only [W3, W2, W1, W0, hostOps0, hostOps0_1, hostOps0_2]
  after_results_simp
theorem arg2_eq (c : Dev nD) : W3 m ρ c (Proc.devRef .tc main_arg2) = m ((c : Thread nD τ).loc main_arg2) := by
  dsimp only [W3, W2, W1, W0, hostOps0, hostOps0_1, hostOps0_2]
  after_results_simp
theorem arg3_eq (c : Dev nD) : W3 m ρ c (Proc.devRef .tc main_arg3) = m ((c : Thread nD τ).loc main_arg3) := by
  dsimp only [W3, W2, W1, W0, hostOps0, hostOps0_1, hostOps0_2]
  after_results_simp
theorem arg4_eq (c : Dev nD) : W3 m ρ c (Proc.devRef .tc main_arg4) = m ((c : Thread nD τ).loc main_arg4) := by
  dsimp only [W3, W2, W1, W0, hostOps0, hostOps0_1, hostOps0_2]
  after_results_simp
theorem arg5_eq (c : Dev nD) : W3 m ρ c (Proc.devRef .tc main_arg5) = m ((c : Thread nD τ).loc main_arg5) := by
  dsimp only [W3, W2, W1, W0, hostOps0, hostOps0_1, hostOps0_2]
  after_results_simp

end Cert.KernelIdeal.HostHead

end
-- ==== Proof.HostMid.lean ====
/-
  The kernel program's host operations between its first and second regions: layer 1's aggregation.

  From the contents the first region leaves, the stretch gathers the rows of layer 1's dense transform at the edges' sources,
  scales them by the edge weights and adds them into the destinations' rows: the host specification's aggregation of the
  buffers it reads. The edge data, the biases and layer 2's weight pass through it unchanged.
-/
import proofs.«178393_j21655225106952_1_alg».proof.Proof.Gen.KernelIdeal.Frame
import proofs.«178393_j21655225106952_1_alg».proof.Proof.HostSpec
import Idealize.ShloMosaic.Lib.StableHlo.Run

set_option maxRecDepth 16384

noncomputable section

namespace Cert.KernelIdeal.HostMid

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The aggregate after the stretch: layer 1's aggregation of the buffers the stretch reads. -/
theorem aggregate_eq (c : Dev nD) :
    W5 m ρ c (Proc.devRef .tc main_v46)
      = Cert.Gcn.aggregate128 (F := F) (W4 m ρ c (Proc.devRef .tc main_v33)) (W4 m ρ c (Proc.devRef .tc main_v1))
          (W4 m ρ c (Proc.devRef .tc main_v3)) (W4 m ρ c (Proc.devRef .tc main_v32)) := by
  dsimp only [W5, hostOps1]
  after_results_simp
  rfl

/-- What the stretch does not write it leaves. -/
theorem keep_v1 (c : Dev nD) : W5 m ρ c (Proc.devRef .tc main_v1) = W4 m ρ c (Proc.devRef .tc main_v1) := by
  dsimp only [W5, hostOps1]; after_results_simp
theorem keep_v3 (c : Dev nD) : W5 m ρ c (Proc.devRef .tc main_v3) = W4 m ρ c (Proc.devRef .tc main_v3) := by
  dsimp only [W5, hostOps1]; after_results_simp
theorem keep_v32 (c : Dev nD) : W5 m ρ c (Proc.devRef .tc main_v32) = W4 m ρ c (Proc.devRef .tc main_v32) := by
  dsimp only [W5, hostOps1]; after_results_simp
theorem keep_arg3 (c : Dev nD) : W5 m ρ c (Proc.devRef .tc main_arg3) = W4 m ρ c (Proc.devRef .tc main_arg3) := by
  dsimp only [W5, hostOps1]; after_results_simp
theorem keep_arg4 (c : Dev nD) : W5 m ρ c (Proc.devRef .tc main_arg4) = W4 m ρ c (Proc.devRef .tc main_arg4) := by
  dsimp only [W5, hostOps1]; after_results_simp
theorem keep_arg5 (c : Dev nD) : W5 m ρ c (Proc.devRef .tc main_arg5) = W4 m ρ c (Proc.devRef .tc main_arg5) := by
  dsimp only [W5, hostOps1]; after_results_simp

end Cert.KernelIdeal.HostMid

end
-- ==== Proof.HostTail.lean ====
/-
  The kernel program's host operations after its third region: layer 2's aggregation and bias.

  From the contents the third region leaves, the last stretch gathers the rows of layer 2's dense transform at the edges'
  sources, scales them by the edge weights, adds them into the destinations' rows and adds the bias: the host specification's
  layer-2 tail of the buffers it reads. It writes none of the buffers it reads.
-/
import proofs.«178393_j21655225106952_1_alg».proof.Proof.Gen.KernelIdeal.Frame
import proofs.«178393_j21655225106952_1_alg».proof.Proof.HostSpec
import Idealize.ShloMosaic.Lib.StableHlo.Run

set_option maxRecDepth 16384

noncomputable section

namespace Cert.KernelIdeal.HostTail

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The result buffer after the last stretch: layer 2's aggregation and bias of the buffers the stretch reads. -/
theorem result_eq (c : Dev nD) :
    W8 m ρ c (Proc.devRef .tc main_v64)
      = Cert.Gcn.outOf (F := F)
          (Cert.Gcn.aggregate10 (W7 m ρ c (Proc.devRef .tc main_v48)) (W7 m ρ c (Proc.devRef .tc main_v1))
            (W7 m ρ c (Proc.devRef .tc main_v3)) (W7 m ρ c (Proc.devRef .tc main_v32)))
          (W7 m ρ c (Proc.devRef .tc main_arg5)) := by
  dsimp only [W8, hostOps3]
  after_results_simp
  rfl

end Cert.KernelIdeal.HostTail

end
-- ==== Proof.Bridge.lean ====
/-
  The host's spelling of the three dense steps is the entry-by-entry one.

  Over the extended reals the host's product of two matrices has at (p, q) the entry Σ_k x[p, k] · w[k, q], and the host's
  bias-and-ramp — the bias made a row, the row repeated down the array, added, the maximum with a splat of the zero word — has
  at (p, q) the entry max(a[p, q] + b[q], 0): the functions the kernel's regions were shown to leave in their arrays.
-/
import proofs.«178393_j21655225106952_1_alg».proof.Proof.HostSpec
import proofs.«178393_j21655225106952_1_alg».proof.Proof.Spec
import proofs.«178393_j21655225106952_1_alg».proof.Proof.LibDotInnerHost
import Idealize.ShloMosaic.Lib.Pipeline.Value
import Idealize.ShloMosaic.Lib.ValueIdx

set_option maxRecDepth 16384

noncomputable section

open scoped BigOperators

namespace Cert.Gcn

open Cert.ReferenceIdeal Cert.ReferenceIdeal.Gen Idealize.ShloMosaic Idealize.ShloMosaic.ValueIdx

/-- The reference's two records of dimension numbers say rows by columns. -/
theorem plain1 : DotInner.Plain dot_S100000x256_S256x128_S100000x128_1_0_0_1_n_n :=
  plain_record dot_S100000x256_S256x128_S100000x128_1_0_0_1_n_n, S100000x256, S256x128
theorem plain2 : DotInner.Plain dot_S100000x128_S128x10_S100000x10_1_0_0_1_n_n :=
  plain_record dot_S100000x128_S128x10_S100000x10_1_0_0_1_n_n, S100000x128, S128x10

/-- Layer 1's dense transform on the host is the whole product. -/
theorem denseHost1_eq (x : S100000x256.Idx → EReal) (w : S256x128.Idx → EReal) :
    denseHost1 (F := Ideal) x w = prod 100000 256 128 x w := by
  funext i
  obtain ⟨p, q, rfl⟩ : ∃ (p : Fin 100000) (q : Fin 128), i = ix2 p q := ⟨i 0, i 1, eq_ix2 i⟩
  exact plain1.dotGeneral none x w p q

/-- Layer 2's dense transform on the host is the whole product. -/
theorem denseHost2_eq (h : S100000x128.Idx → EReal) (w : S128x10.Idx → EReal) :
    denseHost2 (F := Ideal) h w = prod 100000 128 10 h w := by
  funext i
  obtain ⟨p, q, rfl⟩ : ∃ (p : Fin 100000) (q : Fin 10), i = ix2 p q := ⟨i 0, i 1, eq_ix2 i⟩
  exact plain2.dotGeneral none h w p q

/-- The bias as a row repeated down the array reads, at (p, q), the bias at q. -/
theorem bias_rows_apply (b : S128.Idx → EReal) (p : Fin 100000) (q : Fin 128) :
    broadcastInDim S100000x128 ![0, 1] bcast_S1x128_S100000x128_0_1 (broadcastInDim S1x128 ![1] bcast_S128_S1x128_1 b) (ix2 p q)
      = b (ix1 q) :=
  (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ bcast_S128_S1x128_1 b (ix2 (0 : Fin 1) q) (ix1 q) (fun a => match a with
    | ⟨0, _⟩ => by show q.val = if (128 : Nat) = 1 then 0 else q.val; rw [if_neg (by decide)]))

/-- Layer 1's bias and ramp on the host are max(a + b, 0) entry by entry. -/
theorem hiddenOf_eq (a : S100000x128.Idx → EReal) (b : S128.Idx → EReal) :
    hiddenOf (F := Ideal) a b = biasRamp 100000 128 a b := by
  funext i
  obtain ⟨p, q, rfl⟩ : ∃ (p : Fin 100000) (q : Fin 128), i = ix2 p q := ⟨i 0, i 1, eq_ix2 i⟩
  unfold hiddenOf
  rw [maximumf_apply, addf_apply, biasRamp_apply, bias_rows_apply]
  rfl

end Cert.Gcn

end
-- ==== Proof.KernelValue.lean ====
/-
  The idealized kernel's result is the network of the host specification.

  Reading the run's last boundary backwards: the result is layer 2's aggregation and bias of what the third region leaves; the
  third region leaves the whole product of the hidden array and layer 2's weight; the hidden array is what the second region
  leaves, max(aggregate + bias, 0); the aggregate is layer 1's aggregation of what the first region leaves, the whole product
  of the input and layer 1's weight. The edge data every stretch reads are the ones formed before the first region, which no
  later stretch and no region writes; the float arguments are the launch memory's throughout. Each whole product and the
  bias-and-ramp are the host's own spellings of them, so the result is the host specification's network of the arguments.
-/
import proofs.«178393_j21655225106952_1_alg».proof.Proof.Dense1
import proofs.«178393_j21655225106952_1_alg».proof.Proof.Dense2
import proofs.«178393_j21655225106952_1_alg».proof.Proof.BiasRamp
import proofs.«178393_j21655225106952_1_alg».proof.Proof.HostHead
import proofs.«178393_j21655225106952_1_alg».proof.Proof.HostMid
import proofs.«178393_j21655225106952_1_alg».proof.Proof.HostTail
import proofs.«178393_j21655225106952_1_alg».proof.Proof.Bridge

set_option maxRecDepth 16384

noncomputable section

namespace Cert.KernelIdeal.KValue

open Cert.KernelIdeal Cert.KernelIdeal.Gen Cert.Gcn
open Idealize.ShloMosaic Idealize.ShloMosaic.TcCoe Idealize.SL.Sem

variable (m : (ℓ : Loc nD τ sig) → Buf (Elt Ideal) ℓ) (ρ : Dev nD → PrngReg)

/-! ## The edge data, at the boundaries where they are read -/

theorem src_W4 (c : Dev nD) :
    W4 m ρ c (Proc.devRef .tc main_v1) = srcOf (F := Ideal) (m ((c : Thread nD τ).loc main_arg1)) :=
  (W4_of_ne m ρ c main_v1 (by decide)).trans (HostHead.src_eq m ρ c)
theorem dst_W4 (c : Dev nD) :
    W4 m ρ c (Proc.devRef .tc main_v3) = dstOf (F := Ideal) (m ((c : Thread nD τ).loc main_arg1)) :=
  (W4_of_ne m ρ c main_v3 (by decide)).trans (HostHead.dst_eq m ρ c)
theorem weight_W4 (c : Dev nD) :
    W4 m ρ c (Proc.devRef .tc main_v32) = edgeWeightOf (F := Ideal) (m ((c : Thread nD τ).loc main_arg1)) :=
  (W4_of_ne m ρ c main_v32 (by decide)).trans (HostHead.weight_eq m ρ c)

theorem src_W7 (c : Dev nD) :
    W7 m ρ c (Proc.devRef .tc main_v1) = srcOf (F := Ideal) (m ((c : Thread nD τ).loc main_arg1)) :=
  (W7_of_ne m ρ c main_v1 (by decide)).trans ((W6_of_ne m ρ c main_v1 (by decide)).trans
    ((HostMid.keep_v1 m ρ c).trans (src_W4 m ρ c)))
theorem dst_W7 (c : Dev nD) :
    W7 m ρ c (Proc.devRef .tc main_v3) = dstOf (F := Ideal) (m ((c : Thread nD τ).loc main_arg1)) :=
  (W7_of_ne m ρ c main_v3 (by decide)).trans ((W6_of_ne m ρ c main_v3 (by decide)).trans
    ((HostMid.keep_v3 m ρ c).trans (dst_W4 m ρ c)))
theorem weight_W7 (c : Dev nD) :
    W7 m ρ c (Proc.devRef .tc main_v32) = edgeWeightOf (F := Ideal) (m ((c : Thread nD τ).loc main_arg1)) :=
  (W7_of_ne m ρ c main_v32 (by decide)).trans ((W6_of_ne m ρ c main_v32 (by decide)).trans
    ((HostMid.keep_v32 m ρ c).trans (weight_W4 m ρ c)))

/-! ## The float arguments, at the boundaries where they are read -/

theorem arg3_W5 (c : Dev nD) : W5 m ρ c (Proc.devRef .tc main_arg3) = m ((c : Thread nD τ).loc main_arg3) :=
  (HostMid.keep_arg3 m ρ c).trans ((W4_of_ne m ρ c main_arg3 (by decide)).trans (HostHead.arg3_eq m ρ c))
theorem arg4_W6 (c : Dev nD) : W6 m ρ c (Proc.devRef .tc main_arg4) = m ((c : Thread nD τ).loc main_arg4) :=
  (W6_of_ne m ρ c main_arg4 (by decide)).trans ((HostMid.keep_arg4 m ρ c).trans
    ((W4_of_ne m ρ c main_arg4 (by decide)).trans (HostHead.arg4_eq m ρ c)))
theorem arg5_W7 (c : Dev nD) : W7 m ρ c (Proc.devRef .tc main_arg5) = m ((c : Thread nD τ).loc main_arg5) :=
  (W7_of_ne m ρ c main_arg5 (by decide)).trans ((W6_of_ne m ρ c main_arg5 (by decide)).trans
    ((HostMid.keep_arg5 m ρ c).trans ((W4_of_ne m ρ c main_arg5 (by decide)).trans (HostHead.arg5_eq m ρ c))))

/-! ## The three regions' arrays -/

/-- The first region leaves layer 1's dense transform of the input. -/
theorem dense1_eq (c : Dev nD) :
    W4 m ρ c (Proc.devRef .tc main_v33)
      = denseHost1 (F := Ideal) (m ((c : Thread nD τ).loc main_arg0)) (m ((c : Thread nD τ).loc main_arg2)) := by
  refine (W4_arr m ρ c 2).trans ?_
  rw [Dense1.final (V3 m ρ) c]
  show prod 100000 256 128 (W3 m ρ c (Proc.devRef .tc main_arg0)) (W3 m ρ c (Proc.devRef .tc main_arg2)) = _
  rw [HostHead.arg0_eq, HostHead.arg2_eq, denseHost1_eq]

/-- The second region leaves layer 1's output: the hidden array. -/
theorem hidden_eq (c : Dev nD) :
    W6 m ρ c (Proc.devRef .tc main_v47)
      = layer1 (F := Ideal) (denseHost1 (m ((c : Thread nD τ).loc main_arg0)) (m ((c : Thread nD τ).loc main_arg2)))
          (m ((c : Thread nD τ).loc main_arg1)) (m ((c : Thread nD τ).loc main_arg3)) := by
  refine (W6_arr m ρ c 2).trans ?_
  rw [BiasRamp.final (V5 m ρ) c]
  show biasRamp 100000 128 (W5 m ρ c (Proc.devRef .tc main_v46)) (W5 m ρ c (Proc.devRef .tc main_arg3)) = _
  rw [HostMid.aggregate_eq, dense1_eq, src_W4, dst_W4, weight_W4, arg3_W5, ← hiddenOf_eq]
  rfl

/-- The third region leaves layer 2's dense transform of the hidden array. -/
theorem dense2_eq (c : Dev nD) :
    W7 m ρ c (Proc.devRef .tc main_v48)
      = denseHost2 (F := Ideal)
          (layer1 (denseHost1 (m ((c : Thread nD τ).loc main_arg0)) (m ((c : Thread nD τ).loc main_arg2)))
            (m ((c : Thread nD τ).loc main_arg1)) (m ((c : Thread nD τ).loc main_arg3)))
          (m ((c : Thread nD τ).loc main_arg4)) := by
  refine (W7_arr m ρ c 2).trans ?_
  rw [Dense2.final (V6 m ρ) c]
  show prod 100000 128 10 (W6 m ρ c (Proc.devRef .tc main_v47)) (W6 m ρ c (Proc.devRef .tc main_arg4)) = _
  rw [hidden_eq, arg4_W6, denseHost2_eq]

/-! ## The result -/

/-- THE RESULT BUFFER after the run: the network of the six argument arrays. -/
theorem result_eq (c : Dev nD) :
    W8 m ρ c (Proc.devRef .tc main_v64)
      = network (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [HostTail.result_eq, dense2_eq, src_W7, dst_W7, weight_W7, arg5_W7]
  rfl

end Cert.KernelIdeal.KValue

end
-- ==== Proof.lean ====
/-
  The claim: a two-layer graph convolution whose dense transforms and whose bias-and-ramp run as three kernel regions, against
  the same network written with host operations only.

  Both programs form the same edge data from the edge list (sources, destinations, degree-normalised edge weights) and run the
  same gather / scale / scatter-add around their dense steps. The kernel computes x·W1, max(aggregate + b1, 0) and h·W2 in
  regions that walk 20 blocks of 5000 rows; over the extended reals a block of a product is the rows of the whole product
  (the roundings to bf16 are the identity, the matrix unit from a zero accumulator is the plain sum over the contracted axis),
  and a block of the bias-and-ramp is the rows of the whole one, so each region leaves exactly what the reference's
  dot_general, and its add and maximum, produce. The two results are then one function of the arguments. No law of the
  extended reals beyond reading both sides entry by entry is needed, so the finiteness of the inputs is not used.

  The three frames: the two kernel programs' from their generated frame certificates, the reference's from its run. The
  idealization rewrote no operation, so there is nothing to preserve beyond the program text.
-/
import proofs.«178393_j21655225106952_1_alg».proof.Defs
import proofs.«178393_j21655225106952_1_alg».proof.Proof.Gen.Kernel
import proofs.«178393_j21655225106952_1_alg».proof.Proof.Gen.Kernel.Skeleton
import proofs.«178393_j21655225106952_1_alg».proof.Proof.Gen.Kernel.Launch
import proofs.«178393_j21655225106952_1_alg».proof.Proof.Gen.Kernel.Points
import proofs.«178393_j21655225106952_1_alg».proof.Proof.Gen.Kernel.Frame
import proofs.«178393_j21655225106952_1_alg».proof.Proof.Gen.KernelIdeal
import proofs.«178393_j21655225106952_1_alg».proof.Proof.Gen.KernelIdeal.Skeleton
import proofs.«178393_j21655225106952_1_alg».proof.Proof.Gen.KernelIdeal.Launch
import proofs.«178393_j21655225106952_1_alg».proof.Proof.Gen.KernelIdeal.Points
import proofs.«178393_j21655225106952_1_alg».proof.Proof.Gen.KernelIdeal.Frame
import proofs.«178393_j21655225106952_1_alg».proof.Proof.Gen.ReferenceIdeal
import proofs.«178393_j21655225106952_1_alg».proof.Proof.Gen.Pre_finite_inputs
import proofs.«178393_j21655225106952_1_alg».proof.Proof.RefRun
import proofs.«178393_j21655225106952_1_alg».proof.Proof.RefValue
import proofs.«178393_j21655225106952_1_alg».proof.Proof.KernelRun
import proofs.«178393_j21655225106952_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization's ledger is empty. -/
theorem preserves : Cert.preserves_Kernel_KernelIdeal := trivial

/-- Both runs end with the result at the host specification's network of the argument arrays, which agree. -/
theorem algebraic : Cert.algebraic_KernelIdeal_ReferenceIdeal := by
  intro m ρ m' ρ' _ hagree
  refine ⟨fun c => Cert.Gcn.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
